-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x128 : Shape := ⟨3, ![1024, 128, 128]⟩
abbrev S_ : Shape := ⟨0, ![]⟩

class Facts : Prop where
  bcast_S_S1024x128x128 : S_.BroadcastsInDim S1024x128x128 (![] : Fin 0 → Fin S1024x128x128.rank)
  reducesTo_S1024x128x128_S_d0_1_2 : S1024x128x128.ReducesTo [0, 1, 2] S_
  h_S_ : 0 < S_.numel

variable [Facts]

def fn {F : FTy → Type} [FloatOps F] (main_arg0 : FVec F S1024x128x128 .f32) (main_arg1 : FVec F S1024x128x128 .f32) : IVec S_ 1 :=
  let main_v0 : FVec F S1024x128x128 .f32 := Host.absf main_arg0
  let main_cst : FVec F S_ .f32 := constant S_ .f32 0x7F800000#32
  let main_v1 : FVec F S1024x128x128 .f32 := broadcastInDim S1024x128x128 ![] bcast_S_S1024x128x128 main_cst
  let main_v2 : IVec S1024x128x128 1 := cmpf .olt main_v0 main_v1
  let main_c : IVec S_ 1 := constantI S_ 1 1#1
  let main_v3 : IVec S_ 1 := (fun x v => Host.reduce IntOp.andi x v reducesTo_S1024x128x128_S_d0_1_2 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  main_v8
-- ==== Kernel.lean ====
abbrev S1024x128x128 : Shape := ⟨3, ![1024, 128, 128]⟩
abbrev S1024x16384 : Shape := ⟨2, ![1024, 16384]⟩
abbrev S1x1 : Shape := ⟨2, ![1, 1]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S1024x128x128, .f32⟩
  | .hbm, ⟨1, _⟩ => ⟨S1024x128x128, .f32⟩
  | .hbm, ⟨2, _⟩ => ⟨S1024x16384, .f32⟩
  | .hbm, ⟨3, _⟩ => ⟨S1024x16384, .f32⟩
  | .hbm, ⟨4, _⟩ => ⟨S1x1, .f32⟩
  | .hbm, ⟨5, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1024x128x128_S1024x16384 : S1024x128x128.ShapeCasts S1024x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x16384.size a
  hwx0_0 : ∀ i : grid0.Coords, EltTy.bits .f32 = 32 ∨ (Rect.block (s := S1024x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x16384.size a
  hwx0_1 : ∀ i : grid0.Coords, EltTy.bits .f32 = 32 ∨ (Rect.block (s := S1024x16384) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x128x128 : Shape := ⟨3, ![1024, 128, 128]⟩
abbrev S1024x16384 : Shape := ⟨2, ![1024, 16384]⟩
abbrev S_ : Shape := ⟨0, ![]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1024x128x128, .f32⟩
  | .hbm, ⟨1, _⟩ => ⟨S1024x128x128, .f32⟩
  | .hbm, ⟨2, _⟩ => ⟨S1024x16384, .f32⟩
  | .hbm, ⟨3, _⟩ => ⟨S1024x16384, .f32⟩
  | .hbm, ⟨4, _⟩ => ⟨S1024x16384, .f32⟩
  | .hbm, ⟨5, _⟩ => ⟨S_, .f32⟩
  | .hbm, ⟨6, _⟩ => ⟨S1024, .f32⟩
  | .hbm, ⟨7, _⟩ => ⟨S1024x16384, .f32⟩
  | .hbm, ⟨8, _⟩ => ⟨S_, .f32⟩
  | .hbm, ⟨9, _⟩ => ⟨S1024, .f32⟩
  | .hbm, ⟨10, _⟩ => ⟨S1024x1024, .f32⟩
  | .hbm, ⟨11, _⟩ => ⟨S1024x1, .f32⟩
  | .hbm, ⟨12, _⟩ => ⟨S1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S1024x128x128_S1024x16384 : S1024x128x128.ShapeCasts S1024x16384
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  reducesTo_S1024x1024_S_d0_1 : S1024x1024.ReducesTo [0, 1] S_
  dot_S1024x16384_S1024x16384_S1024x1024_1_1_0_0_n_n_wf : DotDims.WF S1024x16384 S1024x16384 S1024x1024 [1] [1] [0] [0] [] []

variable [Facts₀]

def dot_S1024x16384_S1024x16384_S1024x1024_1_1_0_0_n_n : DotDims S1024x16384 S1024x16384 S1024x1024 where
  lhsContracting := [1]
  rhsContracting := [1]
  lhsNonContracting := [0]
  rhsNonContracting := [0]
  lhsBatch := []
  rhsBatch := []
  wf := dot_S1024x16384_S1024x16384_S1024x1024_1_1_0_0_n_n_wf

class Facts : Prop extends Facts₀ where

variable [Facts]
-- ==== Proof.Distance.lean ====
/-
  The mean pairwise distance, as one function of two [1024, 16384] arrays of extended reals.

  For rows `a i` and `b j` (each of 16384 entries)
      d(i, j) = √ max( (‖a i‖² + ‖b j‖²) − 2 · ⟨a i, b j⟩ , 0 )
  and the result is  ( ∑ i, ∑ j, d(i, j) ) / 2²⁰.

  The feature axis is cut into 16 tiles of 1024 entries: entry `k` is entry `l` of tile `t` for
  `k = 1024 · t + l`.  A sum over the whole axis is the sum over the tiles of the sums inside each
  tile (`sum_tiles`); a running sum that starts at zero and adds one tile's sum at a time has, after
  the sixteenth tile, the sum over the whole axis (`runSum_last`).  Only commutativity and
  associativity of `+` on the extended reals are used, so nothing here asks for finite entries.
-/
import Idealize.ShloMosaic.PureOps.Ideal
import Idealize.ShloMosaic.PureOps.Ideal.Laws
import Idealize.ShloMosaic.Lib.ValueIdx

noncomputable section

namespace Cert.Distance

open Idealize.ShloMosaic Idealize.ShloMosaic.ValueIdx

/-- Entry `l` of tile `t` of the feature axis. -/
abbrev col (t : Fin 16) (l : Fin 1024) : Fin 16384 :=
  ⟨1024 * t.val + l.val, by have := t.isLt; have := l.isLt; omega⟩

/-- (tile, entry inside the tile) ↔ entry of the feature axis. -/
def tileEquiv : Fin 16 × Fin 1024 ≃ Fin 16384 where
  toFun p := col p.1 p.2
  invFun k := (⟨k.val / 1024, by have := k.isLt; omega⟩, ⟨k.val % 1024, by omega⟩)
  left_inv p := by
    obtain ⟨⟨t, ht⟩, ⟨l, hl⟩⟩ := p
    refine Prod.ext (Fin.ext ?_) (Fin.ext ?_)
    · show (1024 * t + l) / 1024 = t; omega
    · show (1024 * t + l) % 1024 = l; omega
  right_inv k := by
    apply Fin.ext
    show 1024 * (k.val / 1024) + k.val % 1024 = k.val
    omega

/-- A sum over the feature axis is the sum over the tiles of the sums inside each tile. -/
theorem sum_tiles {M : Type*} [AddCommMonoid M] (f : Fin 16384 → M) :
    ∑ k, f k = ∑ t : Fin 16, ∑ l : Fin 1024, f (col t l) := by
  rw [← Equiv.sum_comp tileEquiv f, Fintype.sum_prod_type]
  rfl

/-- The running sum over the tiles: zero plus tile 0's term, then one more tile's term at a time. -/
def runSum (g : Fin 16 → EReal) : (n : ℕ) → n < 16 → EReal
  | 0, h => Ideal.ofBits .f32 0x00000000#32 + g ⟨0, h⟩
  | n + 1, h => runSum g n (Nat.lt_of_succ_lt h) + g ⟨n + 1, h⟩

theorem runSum_eq_range (g : Fin 16 → EReal) : ∀ (n : ℕ) (h : n < 16),
    runSum g n h = ∑ t ∈ Finset.range (n + 1), (if ht : t < 16 then g ⟨t, ht⟩ else 0)
  | 0, h => by
    rw [runSum, Ideal.ofBits_zero_f32, zero_add, Finset.sum_range_one, dif_pos h]
  | n + 1, h => by
    rw [runSum, runSum_eq_range g n, Finset.sum_range_succ _ (n + 1), dif_pos h]

/-- After the last tile the running sum is the sum over all tiles. -/
theorem runSum_last (g : Fin 16 → EReal) (h : 15 < 16) : runSum g 15 h = ∑ t : Fin 16, g t := by
  rw [runSum_eq_range, ← Fin.sum_univ_eq_sum_range (fun t => if ht : t < 16 then g ⟨t, ht⟩ else 0) 16]
  exact Finset.sum_congr rfl fun t _ => dif_pos t.isLt

variable (a b : (⟨2, ![1024, 16384]⟩ : Shape).Idx → Ideal .f32)

/-- ⟨a i, b j⟩ restricted to tile `t`. -/
def tileDot (i j : Fin 1024) (t : Fin 16) : EReal :=
  ∑ l : Fin 1024, a (ix2 i (col t l)) * b (ix2 j (col t l))

/-- ⟨a i, b j⟩. -/
def dot (i j : Fin 1024) : EReal := ∑ k : Fin 16384, a (ix2 i k) * b (ix2 j k)

theorem dot_eq_tiles (i j : Fin 1024) : dot a b i j = ∑ t : Fin 16, tileDot a b i j t :=
  sum_tiles fun k => a (ix2 i k) * b (ix2 j k)

/-- The running inner product after tile `n` is, after the last tile, the inner product. -/
theorem runSum_tileDot (i j : Fin 1024) (h : 15 < 16) : runSum (tileDot a b i j) 15 h = dot a b i j := by
  rw [runSum_last, dot_eq_tiles]

/-- d(i, j): the literals are 2.0 and 0.0. -/
def pairDist (i j : Fin 1024) : EReal :=
  Ideal.sqrt (max ((dot a a i i + dot b b j j) - Ideal.ofBits .f32 0x40000000#32 * dot a b i j)
    (Ideal.ofBits .f32 0x00000000#32))

/-- The mean of d over all pairs: the divisor's literal is 2²⁰ = 1048576.0. -/
def meanDist : EReal :=
  Ideal.div (∑ i : Fin 1024, ∑ j : Fin 1024, pairDist a b i j) (Ideal.ofBits .f32 0x49800000#32)

end Cert.Distance

end
-- ==== Proof.RefSide.lean ====
/-
  The reference's result is the mean pairwise distance of its two reshaped arguments.

  Each row norm is the host's sum of squares over the feature axis (initial value zero), the Gram
  entry the host's contraction over the same axis, the distance the square root of the clamped
  combination, and the mean the host's sum over all pairs (initial value zero) divided by 2²⁰.
-/
import proofs.«146759_j55190329754162_1_alg».proof.Proof.Gen.ReferenceIdeal.Read
import proofs.«146759_j55190329754162_1_alg».proof.Proof.Distance

noncomputable section

namespace Cert.RefSide

open Cert.ReferenceIdeal Cert.ReferenceIdeal.Read Idealize.ShloMosaic Idealize.ShloMosaic.ValueIdx Cert.Distance

variable (x0 x1 : (⟨S1024x128x128, .f32⟩ : BufTy).Contents (Elt Ideal))

/-- ‖row i of the first argument‖²: zero plus the sum of the squares. -/
theorem sqnorm0 (i : Fin 1024) :
    val_main_v3 (F := Ideal) x0 (ix1 i) = dot (val_main_v0 (F := Ideal) x0) (val_main_v0 (F := Ideal) x0) i i := by
  rw [val_main_v3_apply]
  show Ideal.ofBits .f32 0x00000000#32 + _ = _
  rw [Ideal.ofBits_zero_f32, zero_add]
  exact Finset.sum_congr rfl fun k _ => rfl

/-- ‖row j of the second argument‖². -/
theorem sqnorm1 (j : Fin 1024) :
    val_main_v5 (F := Ideal) x1 (ix1 j) = dot (val_main_v1 (F := Ideal) x1) (val_main_v1 (F := Ideal) x1) j j := by
  rw [val_main_v5_apply]
  show Ideal.ofBits .f32 0x00000000#32 + _ = _
  rw [Ideal.ofBits_zero_f32, zero_add]
  exact Finset.sum_congr rfl fun k _ => rfl

/-- The Gram entry (i, j). -/
theorem gram (i j : Fin 1024) :
    val_main_v6 (F := Ideal) x0 x1 (ix2 i j) = dot (val_main_v0 (F := Ideal) x0) (val_main_v1 (F := Ideal) x1) i j := by
  rw [val_main_v6_apply]
  exact Finset.sum_congr rfl fun k _ => rfl

/-- Row i's norm, broadcast along the columns. -/
theorem bcast_rows (i j : Fin 1024) :
    val_main_v9 (F := Ideal) x0 (ix2 i j) = dot (val_main_v0 (F := Ideal) x0) (val_main_v0 (F := Ideal) x0) i i := by
  have e : idx_main_v7 (idx_main_v9 (ix2 i j)) = ix1 i := funext fun a => by match a with | ⟨0, _⟩ => rfl
  exact (val_main_v9_apply x0 (ix2 i j)).trans
    ((val_main_v7_apply x0 (idx_main_v9 (ix2 i j))).trans ((congrArg (val_main_v3 (F := Ideal) x0) e).trans (sqnorm0 x0 i)))

/-- Row j's norm of the second argument, broadcast along the rows. -/
theorem bcast_cols (i j : Fin 1024) :
    val_main_v10 (F := Ideal) x1 (ix2 i j) = dot (val_main_v1 (F := Ideal) x1) (val_main_v1 (F := Ideal) x1) j j := by
  have e : idx_main_v8 (idx_main_v10 (ix2 i j)) = ix1 j := funext fun a => by match a with | ⟨0, _⟩ => rfl
  exact (val_main_v10_apply x1 (ix2 i j)).trans
    ((val_main_v8_apply x1 (idx_main_v10 (ix2 i j))).trans ((congrArg (val_main_v5 (F := Ideal) x1) e).trans (sqnorm1 x1 j)))

/-- The distance of pair (i, j). -/
theorem dist_apply (i j : Fin 1024) :
    val_main_v17 (F := Ideal) x0 x1 (ix2 i j) = pairDist (val_main_v0 (F := Ideal) x0) (val_main_v1 (F := Ideal) x1) i j := by
  rw [val_main_v17_apply x0 x1 (ix2 i j)]
  rw [val_main_v16_apply x0 x1 (ix2 i j)]
  rw [val_main_v14_apply x0 x1 (ix2 i j)]
  rw [val_main_v11_apply x0 x1 (ix2 i j)]
  rw [val_main_v13_apply x0 x1 (ix2 i j)]
  rw [bcast_rows x0 i j]
  rw [bcast_cols x1 i j]
  rw [gram x0 x1 i j]
  rw [val_main_v12_apply (ix2 i j)]
  rw [val_main_v15_apply (ix2 i j)]
  rw [val_main_cst_1_apply, val_main_cst_2_apply]
  unfold pairDist
  simp only [Ideal.hostUnary_sqrt_def, Ideal.maximumf_def, Ideal.subf_def, Ideal.addf_def, Ideal.mulf_def, Ideal.ofBits_def]

/-- The reference's result. -/
theorem result_eq :
    val_main_v19 (F := Ideal) x0 x1 = fun _ => meanDist (val_main_v0 (F := Ideal) x0) (val_main_v1 (F := Ideal) x1) := by
  funext i
  rw [val_main_v19_apply, val_main_v18_apply]
  show Ideal.div (Ideal.ofBits .f32 0x00000000#32 + ∑ j : S1024x1024.Idx, val_main_v17 (F := Ideal) x0 x1 j)
    (Ideal.ofBits .f32 0x49800000#32) = _
  rw [Ideal.ofBits_zero_f32, zero_add, sum_idx2]
  exact congrArg (fun s => Ideal.div s (Ideal.ofBits .f32 0x49800000#32))
    (Finset.sum_congr rfl fun p _ => Finset.sum_congr rfl fun q _ => dist_apply x0 x1 p q)

end Cert.RefSide

end
-- ==== Proof.Pieces.lean ====
/-
  What one run of the kernel body leaves behind, as values.

  The body keeps three accumulators between grid points: the Gram accumulator (1024 × 1024) and the two
  columns of row norms (1024 × 1 each).  At the first grid point it stores zeros into them and then adds
  this tile's contribution, so what it leaves is "zeros plus the tile's contribution"; at every later
  point it adds the tile's contribution to what the point before left.  At the last point it also writes
  the result block: the mean distance computed from the three accumulators as that same point has just
  updated them.  Each statement below says that the contents found after the body are the corresponding
  pure expression of the input blocks and of the accumulators' previous contents.
-/
import proofs.«146759_j55190329754162_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The first grid point: the accumulators start from the zeros the body has just stored -/

/-- Gram accumulator after the first point: the stored zeros plus the tile's products. -/
theorem scratch0_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (x0 x1 : Vec F S1024x1024 .f32) :
    sout0_A_0 c i arg1 harg1 arg2 harg2 arg3 harg3 arg4 harg4 arg5 harg5 arg6 harg6 hc0 hc1 x0 x1 = k0_pay9 x0 x1 k0_pay2 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg1.read_unread, harg2.read_unread, harg4.read_unread, harg5.read_unread, harg6.read_unread, View.ld_unit_zero (S := S1024x1024) hz, View.ld_unit_zero (S := S1024x1) hz]

/-- First argument's row norms after the first point: the stored zeros plus the tile's sums of squares. -/
theorem scratch1_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (x0 x1 : Vec F S1024x1024 .f32) :
    sout0_A_1 c i arg1 harg1 arg2 harg2 arg3 harg3 arg4 harg4 arg5 harg5 arg6 harg6 hc0 hc1 x0 x1 = k0_pay7 x0 k0_pay3 := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1024x1) hz, View.readCov_unit_zero (S := S1024x1) _ hz]
  simp only [View.readAt_eq_ld, harg1.read_unread, harg2.read_unread, harg4.read_unread, harg5.read_unread, harg6.read_unread, View.ld_unit_zero (S := S1024x1024) hz, View.ld_unit_zero (S := S1024x1) hz]

/-- Second argument's row norms after the first point. -/
theorem scratch2_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (x0 x1 : Vec F S1024x1024 .f32) :
    sout0_A_2 c i arg1 harg1 arg2 harg2 arg3 harg3 arg4 harg4 arg5 harg5 arg6 harg6 hc0 hc1 x0 x1 = k0_pay8 x1 k0_pay4 := by
  unfold sout0_A_2
  rw [View.read_writes_eq_canon _ _ _ (scover0_A_2 c i arg1 harg1 arg2 harg2 arg3 harg3 arg4 harg4 arg5 harg5 arg6 harg6 hc0 hc1 x0 x1)]
  unfold kernelRun0_A
  dsimp only
  sl_unfold_words
  rw [View.canon_cons_unit_zero (S := S1024x1) hz, View.readCov_unit_zero (S := S1024x1) _ hz]
  simp only [View.readAt_eq_ld, harg1.read_unread, harg2.read_unread, harg4.read_unread, harg5.read_unread, harg6.read_unread, View.ld_unit_zero (S := S1024x1024) hz, View.ld_unit_zero (S := S1024x1) hz]

/-! ## A middle grid point: each accumulator is what the point before left plus the tile's contribution -/

/-- Gram accumulator after a middle point. -/
theorem scratch0_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (x0 x1 : Vec F S1024x1024 .f32) (xs0 : Vec F S1024x1024 .f32) (xs1 xs2 : Vec F S1024x1 .f32) :
    sout0_B_0 c i arg1 harg1 arg2 harg2 arg3 harg3 arg4 harg4 arg5 harg5 arg6 harg6 hc0 hc1 x0 x1 xs0 xs1 xs2 = k0_pay9 x0 x1 xs0 := by
  unfold sout0_B_0
  rw [View.read_writes_eq_canon _ _ _ (scover0_B_0 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-- First argument's row norms after a middle point. -/
theorem scratch1_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (x0 x1 : Vec F S1024x1024 .f32) (xs0 : Vec F S1024x1024 .f32) (xs1 xs2 : Vec F S1024x1 .f32) :
    sout0_B_1 c i arg1 harg1 arg2 harg2 arg3 harg3 arg4 harg4 arg5 harg5 arg6 harg6 hc0 hc1 x0 x1 xs0 xs1 xs2 = k0_pay7 x0 xs1 := by
  unfold sout0_B_1
  rw [View.read_writes_eq_canon _ _ _ (scover0_B_1 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-- Second argument's row norms after a middle point. -/
theorem scratch2_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (x0 x1 : Vec F S1024x1024 .f32) (xs0 : Vec F S1024x1024 .f32) (xs1 xs2 : Vec F S1024x1 .f32) :
    sout0_B_2 c i arg1 harg1 arg2 harg2 arg3 harg3 arg4 harg4 arg5 harg5 arg6 harg6 hc0 hc1 x0 x1 xs0 xs1 xs2 = k0_pay8 x1 xs2 := by
  unfold sout0_B_2
  rw [View.read_writes_eq_canon _ _ _ (scover0_B_2 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-! ## The last grid point: the same updates, and the result block computed from the updated accumulators -/

/-- Gram accumulator after the last point. -/
theorem scratch0_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (x0 x1 : Vec F S1024x1024 .f32) (xs0 : Vec F S1024x1024 .f32) (xs1 xs2 : Vec F S1024x1 .f32) :
    sout0_C_0 c i arg1 harg1 arg2 harg2 arg3 harg3 arg4 harg4 arg5 harg5 arg6 harg6 hc0 hc1 x0 x1 xs0 xs1 xs2 = k0_pay9 x0 x1 xs0 := by
  unfold sout0_C_0
  rw [View.read_writes_eq_canon _ _ _ (scover0_C_0 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-- First argument's row norms after the last point. -/
theorem scratch1_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (x0 x1 : Vec F S1024x1024 .f32) (xs0 : Vec F S1024x1024 .f32) (xs1 xs2 : Vec F S1024x1 .f32) :
    sout0_C_1 c i arg1 harg1 arg2 harg2 arg3 harg3 arg4 harg4 arg5 harg5 arg6 harg6 hc0 hc1 x0 x1 xs0 xs1 xs2 = k0_pay7 x0 xs1 := by
  unfold sout0_C_1
  rw [View.read_writes_eq_canon _ _ _ (scover0_C_1 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-- Second argument's row norms after the last point. -/
theorem scratch2_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (x0 x1 : Vec F S1024x1024 .f32) (xs0 : Vec F S1024x1024 .f32) (xs1 xs2 : Vec F S1024x1 .f32) :
    sout0_C_2 c i arg1 harg1 arg2 harg2 arg3 harg3 arg4 harg4 arg5 harg5 arg6 harg6 hc0 hc1 x0 x1 xs0 xs1 xs2 = k0_pay8 x1 xs2 := by
  unfold sout0_C_2
  rw [View.read_writes_eq_canon _ _ _ (scover0_C_2 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]

/-- The result block the last point writes: the mean distance read off the three accumulators as this point
    has just updated them. -/
theorem result_C (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (x0 x1 : Vec F S1024x1024 .f32) (xs0 : Vec F S1024x1024 .f32) (xs1 xs2 : Vec F S1024x1 .f32) :
    out0_C_2 c i arg1 harg1 arg2 harg2 arg3 harg3 arg4 harg4 arg5 harg5 arg6 harg6 hc0 hc1 x0 x1 xs0 xs1 xs2 = k0_pay1 (k0_pay7 x0 xs1) (k0_pay8 x1 xs2) (k0_pay9 x0 x1 xs0) := by
  unfold out0_C_2
  rw [View.read_writes_eq_canon _ _ _ (cover0_C_2 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg2.read_unread, harg4.read_unread, harg5.read_unread, harg6.read_unread, View.ld_unit_zero (S := S1024x1024) hz, View.ld_unit_zero (S := S1024x1) hz]
  rw [View.readCov_unit_zero (S := S1024x1) _ hz, View.readCov_unit_zero (S := S1024x1) _ hz,
    View.readCov_unit_zero (S := S1024x1024) _ hz]

end Cert.KernelIdeal.Pieces

end
-- ==== Proof.Payloads.lean ====
/-
  The body's arithmetic, read one entry at a time on the extended reals.

  * the row-norm update adds to entry (i, 0) of the accumulator column the sum of the squares of row i of
    the block;
  * the Gram update adds to entry (i, j) of the accumulator the sum over the block's columns of the
    products of row i of the first block and row j of the second (rounding the factors to a shorter
    format is the identity here);
  * the result block's one entry is the sum over i of the sums over j of
    √ max((n₁ i + n₂ j) − 2 · g i j, 0), divided by 2²⁰, where n₁, n₂ are the two norm columns and g the
    Gram accumulator.
-/
import proofs.«146759_j55190329754162_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen

/-! ## Layout operations at an entry -/

/-- Column `k` put back into the reduced row index `i` is entry (i, k). -/
theorem lift_row (h : S1024x1024.Reduces [1] S1024) (i : Fin 1024) (k : Fin (S1024x1024.size 1)) :
    h.lift (ix1 i) k = ix2 i (⟨k.val, k.isLt⟩ : Fin 1024) := by
  funext c; apply Fin.ext; fin_cases c <;> rfl

/-- Row `k` put back into the one reduced index is entry (k, 0). -/
theorem lift_col (h : S1024x1.Reduces [0] S1) (k : Fin (S1024x1.size 0)) :
    h.lift (ix1 (0 : Fin 1)) k = ix2 (⟨k.val, k.isLt⟩ : Fin 1024) (0 : Fin 1) := by
  funext c; apply Fin.ext; fin_cases c <;> rfl

/-- A sum along the rows of a 1024 × 1024 block, at row i. -/
theorem rowSum_apply (src : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 src 0x00000000#32 h hφ hacc (ix1 i) = ∑ l : Fin 1024, src (ix2 i l) :=
  (Ideal.multiReduction_add_single src _ h hφ hacc (ix1 i)).trans
    (Finset.sum_congr rfl fun k _ => congrArg src (lift_row h i k))

/-- The sum of a column of 1024 entries. -/
theorem colSum_apply (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ k : Fin 1024, src (ix2 k (0 : Fin 1)) :=
  (Ideal.multiReduction_add_single src _ h hφ hacc (ix1 0)).trans
    (Finset.sum_congr rfl fun k _ => congrArg src (lift_col h k))

/-- A vector of 1024 entries recast as a column: entry (i, 0) is entry i. -/
theorem col_cast (h : S1024.ShapeCasts S1024x1) (z : FVec Ideal S1024 .f32) (i : Fin 1024) :
    shapeCast S1024x1 z h (ix2 i (0 : Fin 1)) = z (ix1 i) :=
  shapeCast_apply z h (ix2 i 0) (ix1 i) (by
    rewrite [Shape.rowMajor_val_one, Shape.rowMajor_val_two]; show i.val = i.val * 1 + 0; omega)

/-- A vector of one entry recast as a 1 × 1 block. -/
theorem one_cast (h : S1.ShapeCasts S1x1) (z : FVec Ideal S1 .f32) :
    shapeCast S1x1 z h (ix2 (0 : Fin 1) (0 : Fin 1)) = z (ix1 (0 : Fin 1)) :=
  shapeCast_apply z h (ix2 0 0) (ix1 0) (by
    rewrite [Shape.rowMajor_val_one, Shape.rowMajor_val_two]; show 0 = 0 * 1 + 0; omega)

/-- A column repeated across 1024 columns: entry (i, j) is the column's entry i. -/
theorem bcast_col (h : S1024x1.Broadcasts S1024x1024) (z : FVec Ideal S1024x1 .f32) (i j : Fin 1024) :
    broadcastTo S1024x1024 z h (ix2 i j) = z (ix2 i (0 : Fin 1)) :=
  broadcastTo_apply z h (ix2 i j) (ix2 i 0) (fun a => by
    match a with
    | ⟨0, _⟩ => show i.val = if (1024 : Nat) = 1 then 0 else i.val; rw [if_neg (by decide)]
    | ⟨1, _⟩ => show 0 = if (1 : Nat) = 1 then 0 else j.val; rw [if_pos rfl])

/-- A row repeated down 1024 rows: entry (i, j) is the row's entry j. -/
theorem bcast_row (h : S1x1024.Broadcasts S1024x1024) (z : FVec Ideal S1x1024 .f32) (i j : Fin 1024) :
    broadcastTo S1024x1024 z h (ix2 i j) = z (ix2 (0 : Fin 1) j) :=
  broadcastTo_apply z h (ix2 i j) (ix2 0 j) (fun a => by
    match a with
    | ⟨0, _⟩ => show 0 = if (1 : Nat) = 1 then 0 else i.val; rw [if_pos rfl]
    | ⟨1, _⟩ => show j.val = if (1024 : Nat) = 1 then 0 else j.val; rw [if_neg (by decide)])

/-- A column turned into a row: entry (0, j) is the column's entry j. -/
theorem transpose_col (h : S1024x1.Transposes [1, 0] S1x1024) (z : FVec Ideal S1024x1 .f32) (j : Fin 1024) :
    transpose S1x1024 [1, 0] z h (ix2 (0 : Fin 1) j) = z (ix2 j (0 : Fin 1)) :=
  transpose_apply [1, 0] z h (ix2 0 j) (ix2 j 0) (fun b => by
    match b with
    | ⟨0, _⟩ => rfl
    | ⟨1, _⟩ => rfl)

/-! ## The product of two blocks, contracted along their columns -/

theorem lhs_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Into a zero accumulator the product's entry (i, j) is the sum over the columns of the products of
    row i of the left block and row j of the right block. -/
theorem tileGram_apply (lhs rhs : FVec Ideal S1024x1024 .bf16) (i j : Fin 1024) :
    matmul dot_S1024x1024_S1024x1024_S1024x1024_1_1_0_0_n_n none lhs rhs (constant S1024x1024 .f32 0x00000000#32) (ix2 i j)
      = ∑ l : Fin 1024, lhs (ix2 i l) * rhs (ix2 j l) := by
  refine (Ideal.matmul_constant_zero_apply dot_S1024x1024_S1024x1024_S1024x1024_1_1_0_0_n_n none lhs rhs (ix2 i j)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 i j) ((ValueIdx.contrEquiv1 dot_S1024x1024_S1024x1024_S1024x1024_1_1_0_0_n_n 1024 rfl rfl).symm k) = ix2 i k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 i j) ((ValueIdx.contrEquiv1 dot_S1024x1024_S1024x1024_S1024x1024_1_1_0_0_n_n 1024 rfl rfl).symm k) = ix2 j k := funext fun a => Fin.ext (by
    match a with
    | ⟨0, _⟩ => exact rhs_0 _ _
    | ⟨1, _⟩ => exact (rhs_1 _ _).trans hk)
  rw [el, er]

/-! ## The three updates and the result, at an entry -/

/-- The row-norm update of the first block. -/
theorem norm0_step (x : Vec Ideal S1024x1024 .f32) (acc : Vec Ideal S1024x1 .f32) (i : Fin 1024) :
    k0_pay7 (F := Ideal) x acc (ix2 i (0 : Fin 1)) = acc (ix2 i 0) + ∑ l : Fin 1024, x (ix2 i l) * x (ix2 i l) := by
  unfold k0_pay7 k0_pay5
  simp only [shapeCast_self]
  refine congrArg (acc (ix2 i 0) + ·) ?_
  exact (col_cast _ _ i).trans (rowSum_apply _ _ _ _ i)

/-- The row-norm update of the second block. -/
theorem norm1_step (x : Vec Ideal S1024x1024 .f32) (acc : Vec Ideal S1024x1 .f32) (i : Fin 1024) :
    k0_pay8 (F := Ideal) x acc (ix2 i (0 : Fin 1)) = acc (ix2 i 0) + ∑ l : Fin 1024, x (ix2 i l) * x (ix2 i l) := by
  unfold k0_pay8 k0_pay6
  simp only [shapeCast_self]
  refine congrArg (acc (ix2 i 0) + ·) ?_
  exact (col_cast _ _ i).trans (rowSum_apply _ _ _ _ i)

/-- The Gram update. -/
theorem gram_step (x y : Vec Ideal S1024x1024 .f32) (acc : Vec Ideal S1024x1024 .f32) (i j : Fin 1024) :
    k0_pay9 (F := Ideal) x y acc (ix2 i j) = acc (ix2 i j) + ∑ l : Fin 1024, x (ix2 i l) * y (ix2 j l) := by
  unfold k0_pay9 k0_pay5 k0_pay6
  simp only [shapeCast_self]
  refine congrArg (acc (ix2 i j) + ·) ?_
  exact tileGram_apply _ _ i j

/-- The zeros stored at the first grid point. -/
theorem zero_gram (i j : Fin 1024) : k0_pay2 (F := Ideal) (ix2 i j) = Ideal.ofBits .f32 0x00000000#32 := by
  unfold k0_pay2; simp only [shapeCast_self]; rfl
theorem zero_norm0 (i : Fin 1024) : k0_pay3 (F := Ideal) (ix2 i (0 : Fin 1)) = Ideal.ofBits .f32 0x00000000#32 := by
  unfold k0_pay3; simp only [shapeCast_self]; rfl
theorem zero_norm1 (i : Fin 1024) : k0_pay4 (F := Ideal) (ix2 i (0 : Fin 1)) = Ideal.ofBits .f32 0x00000000#32 := by
  unfold k0_pay4; simp only [shapeCast_self]; rfl

/-- The result block's entry, from the three accumulators. -/
theorem result_apply (n0 n1 : Vec Ideal S1024x1 .f32) (g : Vec Ideal S1024x1024 .f32) :
    k0_pay1 (F := Ideal) n0 n1 g (ix2 (0 : Fin 1) (0 : Fin 1))
      = Ideal.div (∑ i : Fin 1024, ∑ j : Fin 1024,
          Ideal.sqrt (max ((n0 (ix2 i (0 : Fin 1)) + n1 (ix2 j (0 : Fin 1))) - Ideal.ofBits .f32 0x40000000#32 * g (ix2 i j))
            (Ideal.ofBits .f32 0x00000000#32)))
          (Ideal.ofBits .f32 0x49800000#32) := by
  unfold k0_pay1
  refine congrArg (fun s => Ideal.div s (Ideal.ofBits .f32 0x49800000#32)) ?_
  refine (one_cast _ _).trans ((colSum_apply _ _ _ _).trans (Finset.sum_congr rfl fun i _ => ?_))
  refine (col_cast _ _ i).trans ((rowSum_apply _ _ _ _ i).trans (Finset.sum_congr rfl fun j _ => ?_))
  show Ideal.sqrt (max ((broadcastTo S1024x1024 n0 _ (ix2 i j) + broadcastTo S1024x1024 (transpose S1x1024 [1, 0] n1 _) _ (ix2 i j))
      - Ideal.ofBits .f32 0x40000000#32 * g (ix2 i j)) (Ideal.ofBits .f32 0x00000000#32)) = _
  rw [bcast_col, bcast_row, transpose_col]

end Cert.KernelIdeal.Payloads

end
-- ==== Proof.Blocks.lean ====
/-
  What the two input windows read at a grid point.

  Before the kernel runs, the host flattens each argument from [1024, 128, 128] to [1024, 16384]; these two
  flat arrays are what the windows are cut from.  At grid point t each window holds all 1024 rows and the
  1024 columns of tile t: entry (p, q) of the block is entry (p, 1024 · t + q) of the flat array.
-/
import proofs.«146759_j55190329754162_1_alg».proof.Proof.Gen.KernelIdeal.Frame
import proofs.«146759_j55190329754162_1_alg».proof.Proof.Distance
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.Distance

variable (m : (ℓ : Loc nD τ sig) → Buf (Elt Ideal) ℓ)

/-- The tile grid point `t` works on. -/
def tileOf (t : Fin cfg0.N) : Fin 16 := ⟨t.val, lt_of_lt_of_eq t.isLt N_0⟩

/-- The first argument, flattened, as the kernel finds it. -/
abbrev flatC (c : Dev nD) : FVec Ideal S1024x16384 .f32 := V m c main_v0
/-- The second argument, flattened, as the kernel finds it. -/
abbrev flatD (c : Dev nD) : FVec Ideal S1024x16384 .f32 := V m c main_v1

/-- The flat first argument is the host's reshape of the first argument. -/
theorem flatC_eq (c : Dev nD) :
    flatC m c = shapeCast S1024x16384 (m ((c : Thread nD τ).loc main_arg0)) shapeCasts_S1024x128x128_S1024x16384 := by
  show StableHlo.after hostOps0 (fun b => m (c, b)) (Proc.devRef .tc main_v0) = _
  after_results; rfl

/-- The flat second argument is the host's reshape of the second argument. -/
theorem flatD_eq (c : Dev nD) :
    flatD m c = shapeCast S1024x16384 (m ((c : Thread nD τ).loc main_arg1)) shapeCasts_S1024x128x128_S1024x16384 := by
  show StableHlo.after hostOps0 (fun b => m (c, b)) (Proc.devRef .tc main_v1) = _
  after_results; rfl

/-- Both windows' block index at point t is (0, t). -/
theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = t.val :=
  (by decide +kernel : ∀ t : Fin grid0.N, win0_1.index t 0 = 0 ∧ win0_1.index t 1 = t.val)

/-- Entry (p, q) of the first window's block at point t. -/
theorem blockC_apply (c : Dev nD) (t : Fin cfg0.N) (p q : Fin 1024) :
    (iblk m c 0 t : Vec Ideal S1024x1024 .f32) (ix2 p q) = flatC m c (ix2 p (col (tileOf t) q)) := by
  unfold iblk
  rw [View.read_apply]
  show V m c main_v0 _ = V m c main_v0 _
  refine congrArg (V m c main_v0) (funext fun a => Fin.ext ?_)
  match a with
  | ⟨0, _⟩ => show win0_0.index t 0 * 1024 + 1 * p.val = p.val; rw [(index0 t).1]; omega
  | ⟨1, _⟩ => show win0_0.index t 1 * 1024 + 1 * q.val = 1024 * t.val + q.val; rw [(index0 t).2]; omega

/-- Entry (p, q) of the second window's block at point t. -/
theorem blockD_apply (c : Dev nD) (t : Fin cfg0.N) (p q : Fin 1024) :
    (iblk m c 1 t : Vec Ideal S1024x1024 .f32) (ix2 p q) = flatD m c (ix2 p (col (tileOf t) q)) := by
  unfold iblk
  rw [View.read_apply]
  show V m c main_v1 _ = V m c main_v1 _
  refine congrArg (V m c main_v1) (funext fun a => Fin.ext ?_)
  match a with
  | ⟨0, _⟩ => show win0_1.index t 0 * 1024 + 1 * p.val = p.val; rw [(index1 t).1]; omega
  | ⟨1, _⟩ => show win0_1.index t 1 * 1024 + 1 * q.val = 1024 * t.val + q.val; rw [(index1 t).2]; omega

end Cert.KernelIdeal.Blocks

end
-- ==== Proof.Accum.lean ====
/-
  The three accumulators after each grid point.

  After grid point n the Gram accumulator's entry (i, j) is the running sum, over tiles 0 … n, of the
  tile's part of ⟨c i, d j⟩, and the two norm columns' entries (i, 0) the running sums of the tiles' parts of
  ‖c i‖² and ‖d i‖²: by induction on the point — the first point starts from the zeros it stores, every later
  point adds its tile to what the point before left.  The last point moreover writes the result block from the
  accumulators it has just completed, so that block's entry is the mean pairwise distance of the two flat arrays.
-/
import proofs.«146759_j55190329754162_1_alg».proof.Proof.Pieces
import proofs.«146759_j55190329754162_1_alg».proof.Proof.Payloads
import proofs.«146759_j55190329754162_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.Distance Cert.KernelIdeal.Blocks

/-! ## One update, over blocks that are tile `t` of two flat arrays -/

section steps
variable (a b : FVec Ideal S1024x16384 .f32) (t : Fin 16) (x y : Vec Ideal S1024x1024 .f32)
  (hx : ∀ p q : Fin 1024, x (ix2 p q) = a (ix2 p (col t q)))
  (hy : ∀ p q : Fin 1024, y (ix2 p q) = b (ix2 p (col t q)))

include hx hy in
theorem gram_after (acc : Vec Ideal S1024x1024 .f32) (i j : Fin 1024) :
    k0_pay9 (F := Ideal) x y acc (ix2 i j) = acc (ix2 i j) + tileDot a b i j t :=
  (Payloads.gram_step x y acc i j).trans
    (congrArg (acc (ix2 i j) + ·) (Finset.sum_congr rfl fun l _ => by rw [hx, hy]))

include hx in
theorem norm0_after (acc : Vec Ideal S1024x1 .f32) (i : Fin 1024) :
    k0_pay7 (F := Ideal) x acc (ix2 i (0 : Fin 1)) = acc (ix2 i 0) + tileDot a a i i t :=
  (Payloads.norm0_step x acc i).trans
    (congrArg (acc (ix2 i 0) + ·) (Finset.sum_congr rfl fun l _ => by rw [hx]))

include hy in
theorem norm1_after (acc : Vec Ideal S1024x1 .f32) (i : Fin 1024) :
    k0_pay8 (F := Ideal) y acc (ix2 i (0 : Fin 1)) = acc (ix2 i 0) + tileDot b b i i t :=
  (Payloads.norm1_step y acc i).trans
    (congrArg (acc (ix2 i 0) + ·) (Finset.sum_congr rfl fun l _ => by rw [hy]))

end steps

variable (m : (ℓ : Loc nD τ sig) → Buf (Elt Ideal) ℓ)

/-! ## One grid point -/

/-- The first point: each accumulator is zero plus tile 0's part. -/
theorem first_point (c : Dev nD) (t : Fin cfg0.N) (h0 : t.val % 16 = 0) (h1 : ¬t.val % 16 = 15) :
    (∀ i j : Fin 1024, (outsAt0 m c t.val t.isLt).2.1 (ix2 i j)
        = Ideal.ofBits .f32 0x00000000#32 + tileDot (flatC m c) (flatD m c) i j (tileOf t))
    ∧ (∀ i : Fin 1024, (outsAt0 m c t.val t.isLt).2.2.1 (ix2 i (0 : Fin 1))
        = Ideal.ofBits .f32 0x00000000#32 + tileDot (flatC m c) (flatC m c) i i (tileOf t))
    ∧ (∀ i : Fin 1024, (outsAt0 m c t.val t.isLt).2.2.2 (ix2 i (0 : Fin 1))
        = Ideal.ofBits .f32 0x00000000#32 + tileDot (flatD m c) (flatD m c) i i (tileOf t)) := by
  rw [outsAt0_A m c t h0 h1]
  dsimp only
  refine ⟨fun i j => ?_, fun i => ?_, fun i => ?_⟩
  · rw [Pieces.scratch0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    refine (gram_after (flatC m c) (flatD m c) (tileOf t) (iblk m c 0 t) (iblk m c 1 t) (blockC_apply m c t) (blockD_apply m c t) (k0_pay2 (F := Ideal)) i j).trans ?_
    rw [Payloads.zero_gram]
  · rw [Pieces.scratch1_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    refine (norm0_after (flatC m c) (tileOf t) (iblk m c 0 t) (blockC_apply m c t) (k0_pay3 (F := Ideal)) i).trans ?_
    rw [Payloads.zero_norm0]
  · rw [Pieces.scratch2_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    refine (norm1_after (flatD m c) (tileOf t) (iblk m c 1 t) (blockD_apply m c t) (k0_pay4 (F := Ideal)) i).trans ?_
    rw [Payloads.zero_norm1]

/-- A middle point: each accumulator is what the point before left plus this tile's part. -/
theorem middle_point (c : Dev nD) (t : Fin cfg0.N) (h0 : ¬t.val % 16 = 0) (h1 : ¬t.val % 16 = 15) :
    (∀ i j : Fin 1024, (outsAt0 m c t.val t.isLt).2.1 (ix2 i j)
        = (outsAt0 m c (t.val - 1) (Nat.lt_of_le_of_lt (Nat.sub_le _ _) t.isLt)).2.1 (ix2 i j) + tileDot (flatC m c) (flatD m c) i j (tileOf t))
    ∧ (∀ i : Fin 1024, (outsAt0 m c t.val t.isLt).2.2.1 (ix2 i (0 : Fin 1))
        = (outsAt0 m c (t.val - 1) (Nat.lt_of_le_of_lt (Nat.sub_le _ _) t.isLt)).2.2.1 (ix2 i 0) + tileDot (flatC m c) (flatC m c) i i (tileOf t))
    ∧ (∀ i : Fin 1024, (outsAt0 m c t.val t.isLt).2.2.2 (ix2 i (0 : Fin 1))
        = (outsAt0 m c (t.val - 1) (Nat.lt_of_le_of_lt (Nat.sub_le _ _) t.isLt)).2.2.2 (ix2 i 0) + tileDot (flatD m c) (flatD m c) i i (tileOf t)) := by
  rw [outsAt0_B m c t h0 h1]
  dsimp only
  refine ⟨fun i j => ?_, fun i => ?_, fun i => ?_⟩
  · rw [Pieces.scratch0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact gram_after (flatC m c) (flatD m c) (tileOf t) (iblk m c 0 t) (iblk m c 1 t) (blockC_apply m c t) (blockD_apply m c t) _ i j
  · rw [Pieces.scratch1_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact norm0_after (flatC m c) (tileOf t) (iblk m c 0 t) (blockC_apply m c t) _ i
  · rw [Pieces.scratch2_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact norm1_after (flatD m c) (tileOf t) (iblk m c 1 t) (blockD_apply m c t) _ i

/-- The last point: the same updates; -/
theorem last_point (c : Dev nD) (t : Fin cfg0.N) (h0 : ¬t.val % 16 = 0) (h1 : t.val % 16 = 15) :
    (∀ i j : Fin 1024, (outsAt0 m c t.val t.isLt).2.1 (ix2 i j)
        = (outsAt0 m c (t.val - 1) (Nat.lt_of_le_of_lt (Nat.sub_le _ _) t.isLt)).2.1 (ix2 i j) + tileDot (flatC m c) (flatD m c) i j (tileOf t))
    ∧ (∀ i : Fin 1024, (outsAt0 m c t.val t.isLt).2.2.1 (ix2 i (0 : Fin 1))
        = (outsAt0 m c (t.val - 1) (Nat.lt_of_le_of_lt (Nat.sub_le _ _) t.isLt)).2.2.1 (ix2 i 0) + tileDot (flatC m c) (flatC m c) i i (tileOf t))
    ∧ (∀ i : Fin 1024, (outsAt0 m c t.val t.isLt).2.2.2 (ix2 i (0 : Fin 1))
        = (outsAt0 m c (t.val - 1) (Nat.lt_of_le_of_lt (Nat.sub_le _ _) t.isLt)).2.2.2 (ix2 i 0) + tileDot (flatD m c) (flatD m c) i i (tileOf t)) := by
  rw [outsAt0_C m c t h0 h1]
  dsimp only
  refine ⟨fun i j => ?_, fun i => ?_, fun i => ?_⟩
  · rw [Pieces.scratch0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact gram_after (flatC m c) (flatD m c) (tileOf t) (iblk m c 0 t) (iblk m c 1 t) (blockC_apply m c t) (blockD_apply m c t) _ i j
  · rw [Pieces.scratch1_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact norm0_after (flatC m c) (tileOf t) (iblk m c 0 t) (blockC_apply m c t) _ i
  · rw [Pieces.scratch2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact norm1_after (flatD m c) (tileOf t) (iblk m c 1 t) (blockD_apply m c t) _ i

/-- and the result block is computed from the accumulators as this point leaves them. -/
theorem last_result (c : Dev nD) (t : Fin cfg0.N) (h0 : ¬t.val % 16 = 0) (h1 : t.val % 16 = 15) :
    (outsAt0 m c t.val t.isLt).1
      = k0_pay1 (F := Ideal) (outsAt0 m c t.val t.isLt).2.2.1 (outsAt0 m c t.val t.isLt).2.2.2 (outsAt0 m c t.val t.isLt).2.1 := by
  rw [outsAt0_C m c t h0 h1]
  dsimp only
  rw [Pieces.result_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.scratch0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.scratch1_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.scratch2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-! ## Every grid point, by induction -/

/-- After point n the accumulators hold the running sums over tiles 0 … n. -/
theorem running (c : Dev nD) : ∀ (n : ℕ) (h : n < cfg0.N),
    (∀ i j : Fin 1024, (outsAt0 m c n h).2.1 (ix2 i j)
        = runSum (tileDot (flatC m c) (flatD m c) i j) n (lt_of_lt_of_eq h N_0))
    ∧ (∀ i : Fin 1024, (outsAt0 m c n h).2.2.1 (ix2 i (0 : Fin 1))
        = runSum (tileDot (flatC m c) (flatC m c) i i) n (lt_of_lt_of_eq h N_0))
    ∧ (∀ i : Fin 1024, (outsAt0 m c n h).2.2.2 (ix2 i (0 : Fin 1))
        = runSum (tileDot (flatD m c) (flatD m c) i i) n (lt_of_lt_of_eq h N_0))
  | 0, h => first_point m c ⟨0, h⟩ rfl (by show ¬0 % 16 = 15; decide)
  | n + 1, h => by
    have ih := running c n (Nat.lt_of_succ_lt h)
    have hN : cfg0.N = 16 := N_0
    have h0 : ¬(⟨n + 1, h⟩ : Fin cfg0.N).val % 16 = 0 := by dsimp only; omega
    by_cases h1 : (⟨n + 1, h⟩ : Fin cfg0.N).val % 16 = 15
    · have s := last_point m c ⟨n + 1, h⟩ h0 h1
      exact ⟨fun i j => (s.1 i j).trans (congrArg (· + _) (ih.1 i j)),
        fun i => (s.2.1 i).trans (congrArg (· + _) (ih.2.1 i)),
        fun i => (s.2.2 i).trans (congrArg (· + _) (ih.2.2 i))⟩
    · have s := middle_point m c ⟨n + 1, h⟩ h0 h1
      exact ⟨fun i j => (s.1 i j).trans (congrArg (· + _) (ih.1 i j)),
        fun i => (s.2.1 i).trans (congrArg (· + _) (ih.2.1 i)),
        fun i => (s.2.2 i).trans (congrArg (· + _) (ih.2.2 i))⟩

/-- The result block the last point writes holds the mean pairwise distance of the two flat arrays. -/
theorem result_block (c : Dev nD) (t : Fin cfg0.N) (h1 : t.val % 16 = 15) :
    (outsAt0 m c t.val t.isLt).1 (ix2 (0 : Fin 1) (0 : Fin 1)) = meanDist (flatC m c) (flatD m c) := by
  have hN : cfg0.N = 16 := N_0
  have h15 : t.val = 15 := by have := t.isLt; omega
  have h0 : ¬t.val % 16 = 0 := by omega
  obtain ⟨t, ht⟩ := t
  dsimp only at h15
  subst h15
  have r := running m c 15 ht
  rw [last_result m c ⟨15, ht⟩ h0 h1, Payloads.result_apply]
  unfold meanDist pairDist
  refine congrArg (fun s => Ideal.div s (Ideal.ofBits .f32 0x49800000#32)) ?_
  refine Finset.sum_congr rfl fun i _ => Finset.sum_congr rfl fun j _ => ?_
  rw [r.1 i j, r.2.1 i, r.2.2 j, runSum_tileDot, runSum_tileDot, runSum_tileDot]

end Cert.KernelIdeal.Accum

end
-- ==== Proof.Result.lean ====
/-
  The kernel's result.

  The output window's one block is the whole 1 × 1 result array and is written back once, after the last
  grid point, holding the mean pairwise distance of the two flat arrays; the host then recasts that 1 × 1
  array as a scalar.  So every run of the program ends with the scalar result at that mean distance, and
  with the two arguments as they were.
-/
import proofs.«146759_j55190329754162_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Distance Cert.KernelIdeal.Blocks

variable (m : (ℓ : Loc nD τ sig) → Buf (Elt Ideal) ℓ) (ρ : Dev nD → PrngReg)

/-- The 1 × 1 result array after the run: its one entry is the mean pairwise distance. -/
def resultArr (c : Dev nD) : Buf (Elt Ideal) ((c : Thread nD τ).loc main_v2) :=
  fun _ => meanDist (flatC m c) (flatD m c)

/-- What the last point leaves in the output's block is that array. -/
theorem block_eq (c : Dev nD) (t : Fin cfg0.N) (h1 : t.val % 16 = 15) :
    (outsAt0 m c t.val t.isLt).1 = resultArr m c := by
  funext y
  obtain ⟨p, q, rfl⟩ : ∃ (p q : Fin 1), y = ix2 p q := ⟨y 0, y 1, eq_ix2 y⟩
  obtain rfl : p = 0 := Subsingleton.elim _ _
  obtain rfl : q = 0 := Subsingleton.elim _ _
  exact Accum.result_block m c t h1

/-- The one write-back, after the last point, writes it. -/
theorem flushed_eq (c : Dev nD) (t : Fin cfg0.N) (hf : (cfg0.win 2).flush t = true) :
    (dats m 0 c).flushed 2 t = ((cfg0.win 2).blk t).view.read (Elt Ideal) (resultArr m c) := by
  have h1 : t.val % 16 = 15 := (flush0_2 t).mp hf
  show (cfg0.win 2).cut (grid0.coords t) ((dats m 0 c).after 2 t) = _
  rw [after0_2, block_eq m c t h1]
  funext y
  rw [View.read_apply]
  rfl

/-- So the result array ends holding it: the last point's block covers the array. -/
theorem final (c : Dev nD) : (dats m 0 c).arrAt 2 cfg0.N = resultArr m c :=
  (dats m 0 c).arrAt_eq_of_cover 2 (resultArr m c) (flushed_eq m c) fun i =>
    ⟨t0_15, (flush0_2 t0_15).mpr rfl, by
      show i ∈ ((View.whole main_v2).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The host's recast of the 1 × 1 array as a scalar, after the region. -/
theorem scalar_eq (c : Dev nD) :
    Pipeline.afterTail₀ cfgs (dats m) 0 (V0 m) [hostOps1] c main_v3 = fun _ => meanDist (flatC m c) (flatD m c) := by
  unfold Pipeline.afterTail₀
  show StableHlo.after hostOps1 _ (Proc.devRef .tc main_v3) = _
  after_results
  rw [(Pipeline.withArrays_arr spec0 launch0.win.arr_inj c _ _ 2).trans (final m c)]
  rfl

/-- Every run ends with the scalar result at the mean pairwise distance and the arguments unchanged. -/
theorem run : θ_run defs (onTc (τ := τ) (main (F := Ideal))) ⟨m, fun _ => 0, ρ⟩ fun r => ∀ c : Dev nD,
      r.2.mem ((c.tc : Thread nD τ).loc main_v3) = (fun _ => meanDist (flatC m c) (flatD m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (scalar_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result

end
-- ==== Proof.lean ====
/-
  The mean pairwise Frobenius distance between two batches of 1024 matrices, computed through the identity
  ‖c − d‖² = ‖c‖² + ‖d‖² − 2 ⟨c, d⟩.

  The kernel walks the flattened feature axis (16384 entries) in 16 tiles of 1024.  It keeps three
  accumulators — the 1024 × 1024 Gram matrix and the two columns of squared row norms —, adds each tile's
  contribution to them, and after the last tile takes √ max(‖c i‖² + ‖d j‖² − 2 ⟨c i, d j⟩, 0) at every pair,
  sums the rows, sums the row sums, and divides by 2²⁰.  The reference computes the two norms, the Gram matrix
  and the mean in one piece each.

  On the extended reals the two are the same number: a sum over the whole feature axis is the sum over the
  tiles of the sums inside each tile, a running sum that starts at zero is that sum, and the sum over all
  pairs is the sum over the rows of the row sums.  Only commutativity and associativity of addition are
  used, which hold for every extended real, so the finiteness of the inputs is never called on; rounding
  the factors of the product to a shorter float format is the identity here, the kernel's square root,
  maximum and quotient are the reference's, and the three literals (2, 0 and 2²⁰) are the same words on both
  sides.

  The three frame claims are the generated frames of the two kernel programs and, for the reference, its
  generated run with the result dropped.  The idealization rewrote nothing, so it is preserved trivially.
-/
import proofs.«146759_j55190329754162_1_alg».proof.Defs
import proofs.«146759_j55190329754162_1_alg».proof.Proof.Gen.Kernel
import proofs.«146759_j55190329754162_1_alg».proof.Proof.Gen.Kernel.Frame
import proofs.«146759_j55190329754162_1_alg».proof.Proof.Gen.KernelIdeal
import proofs.«146759_j55190329754162_1_alg».proof.Proof.Gen.KernelIdeal.Frame
import proofs.«146759_j55190329754162_1_alg».proof.Proof.Gen.ReferenceIdeal
import proofs.«146759_j55190329754162_1_alg».proof.Proof.Gen.ReferenceIdeal.Run
import proofs.«146759_j55190329754162_1_alg».proof.Proof.Gen.ReferenceIdeal.Read
import proofs.«146759_j55190329754162_1_alg».proof.Proof.Gen.Pre_finite_inputs
import proofs.«146759_j55190329754162_1_alg».proof.Proof.RefSide
import proofs.«146759_j55190329754162_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scalar result at the mean pairwise distance of the two flattened arguments:
    the kernel by its accumulation over the tiles, the reference by its one-piece sums, of arguments that agree. -/
theorem algebraic : Cert.algebraic_KernelIdeal_ReferenceIdeal := by
  intro m ρ m' ρ' _ hagree
  refine ⟨fun c _ => Cert.Distance.meanDist (Cert.KernelIdeal.Blocks.flatC m c) (Cert.KernelIdeal.Blocks.flatD m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefSide.result_eq, (hagree c).1, (hagree c).2]
  beta_reduce
  rw [Cert.KernelIdeal.Blocks.flatC_eq, Cert.KernelIdeal.Blocks.flatD_eq]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
